-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8x2048x4096 .f32) (main_arg1 : FVec F S4096x4096 .f32) (main_arg2 : FVec F S4096 .f32) (main_arg3 : FVec F S4096 .f32) (main_arg4 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Kernel.lean ====
abbrev S8x2048x4096 : Shape := ⟨3, ![8, 2048, 4096]⟩
abbrev S4096x4096 : Shape := ⟨2, ![4096, 4096]⟩
abbrev S4096 : Shape := ⟨1, ![4096]⟩
abbrev S16384x4096 : Shape := ⟨2, ![16384, 4096]⟩
abbrev S1x4096 : Shape := ⟨2, ![1, 4096]⟩
abbrev S64x4096 : Shape := ⟨2, ![64, 4096]⟩
abbrev S64 : Shape := ⟨1, ![64]⟩
abbrev S64x1 : Shape := ⟨2, ![64, 1]⟩

abbrev nBuf : Space → Nat
  | .hbm => 13
  | .vmem => 8
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S16384x4096, .f32⟩
  | .hbm, ⟨6, _⟩ => ⟨S4096x4096, .f32⟩
  | .hbm, ⟨7, _⟩ => ⟨S4096x4096, .bf16⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S16384x4096, .f32⟩
  | .hbm, ⟨12, _⟩ => ⟨S8x2048x4096, .f32⟩
  | .local _ .vmem, ⟨0, _⟩ => ⟨S64x4096, .f32⟩
  | .local _ .vmem, ⟨1, _⟩ => ⟨S64x4096, .f32⟩
  | .local _ .vmem, ⟨2, _⟩ => ⟨S4096x4096, .bf16⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S64x4096, .f32⟩
  | .local _ .vmem, ⟨7, _⟩ => ⟨S64x4096, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x2048x4096_S16384x4096 : S8x2048x4096.ShapeCasts S16384x4096
  transposes_S4096x4096_S4096x4096_1_0 : S4096x4096.Transposes [1, 0] S4096x4096
  bitsLt_bf16_f32 : FTy.bits .bf16 < FTy.bits .f32
  shapeCasts_S4096_S1x4096 : S4096.ShapeCasts S1x4096
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S64x4096 : S1x4096.Broadcasts S64x4096
  reduces_S64x4096_S64 : S64x4096.Reduces [1] S64
  shapeCasts_S64_S64x1 : S64.ShapeCasts S64x1
  broadcasts_S64x1_S64x4096 : S64x1.Broadcasts S64x4096
  shapeCasts_S16384x4096_S8x2048x4096 : S16384x4096.ShapeCasts S8x2048x4096
  dot_S64x4096_S4096x4096_S64x4096_1_0_0_1_n_n_wf : DotDims.WF S64x4096 S4096x4096 S64x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S16384x4096.size a
  hwx0_0 : ∀ i : grid0.Coords, EltTy.bits .f32 = 32 ∨ (Rect.block (s := S16384x4096) S64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x4096.size a ≤ S16384x4096.size a
  hwx0_5 : ∀ i : grid0.Coords, EltTy.bits .f32 = 32 ∨ (Rect.block (s := S16384x4096) S64x4096.size (cc0_transform_5 i) (hinb0_5 i)).WholeWords (EltTy.packing .f32)

variable [Facts₀]

def dot_S64x4096_S4096x4096_S64x4096_1_0_0_1_n_n : DotDims S64x4096 S4096x4096 S64x4096 where
  lhsContracting := [1]
  rhsContracting := [0]
  lhsNonContracting := [0]
  rhsNonContracting := [1]
  lhsBatch := []
  rhsBatch := []
  wf := dot_S64x4096_S4096x4096_S64x4096_1_0_0_1_n_n_wf

abbrev win0_0 : Pipeline.Window sig grid0 :=
  Pipeline.Window.ofSpec (Memref.whole main_v0) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S64x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S1x1x4096 : Shape := ⟨3, ![1, 1, 4096]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S8x2048x4096, .f32⟩
  | .hbm, ⟨6, _⟩ => ⟨S1x1x4096, .f32⟩
  | .hbm, ⟨7, _⟩ => ⟨S8x2048x4096, .f32⟩
  | .hbm, ⟨8, _⟩ => ⟨S8x2048x4096, .f32⟩
  | .hbm, ⟨9, _⟩ => ⟨S_, .f32⟩
  | .hbm, ⟨10, _⟩ => ⟨S8x2048x4096, .f32⟩
  | .hbm, ⟨11, _⟩ => ⟨S8x2048x4096, .f32⟩
  | .hbm, ⟨12, _⟩ => ⟨S_, .f32⟩
  | .hbm, ⟨13, _⟩ => ⟨S8x2048x4096, .f32⟩
  | .hbm, ⟨14, _⟩ => ⟨S8x2048x4096, .f32⟩
  | .hbm, ⟨15, _⟩ => ⟨S8x2048x4096, .f32⟩
  | .hbm, ⟨16, _⟩ => ⟨S8x2048x4096, .f32⟩
  | .hbm, ⟨17, _⟩ => ⟨S8x2048x4096, .f32⟩
  | .hbm, ⟨18, _⟩ => ⟨S_, .f32⟩
  | .hbm, ⟨19, _⟩ => ⟨S8x2048x4096, .f32⟩
  | .hbm, ⟨20, _⟩ => ⟨S8x2048x4096, .f32⟩
  | .hbm, ⟨21, _⟩ => ⟨S8x2048x4096, .f32⟩
  | .hbm, ⟨22, _⟩ => ⟨S_, .f32⟩
  | .hbm, ⟨23, _⟩ => ⟨S8x2048x4096, .f32⟩
  | .hbm, ⟨24, _⟩ => ⟨S8x2048x4096, .f32⟩
  | .hbm, ⟨25, _⟩ => ⟨S8x2048x4096, .f32⟩
  | .hbm, ⟨26, _⟩ => ⟨S_, .f32⟩
  | .hbm, ⟨27, _⟩ => ⟨S8x2048, .f32⟩
  | .hbm, ⟨28, _⟩ => ⟨S8x2048x1, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S8x2048x4096, .f32⟩
  | .hbm, ⟨33, _⟩ => ⟨S8x2048x4096, .f32⟩
  | .hbm, ⟨34, _⟩ => ⟨S8x2048x4096, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S_, .f32⟩
  | .hbm, ⟨39, _⟩ => ⟨S8x2048x1, .f32⟩
  | .hbm, ⟨40, _⟩ => ⟨S8x2048x1, .f32⟩
  | .hbm, ⟨41, _⟩ => ⟨S_, .f32⟩
  | .hbm, ⟨42, _⟩ => ⟨S8x2048x1, .f32⟩
  | .hbm, ⟨43, _⟩ => ⟨S8x2048x1, .f32⟩
  | .hbm, ⟨44, _⟩ => ⟨S8x2048x1, .f32⟩
  | .hbm, ⟨45, _⟩ => ⟨S1x1x4096, .f32⟩
  | .hbm, ⟨46, _⟩ => ⟨S8x2048x4096, .f32⟩
  | .hbm, ⟨47, _⟩ => ⟨S8x2048x4096, .f32⟩
  | .hbm, ⟨48, _⟩ => ⟨S8x2048x4096, .f32⟩
  | .hbm, ⟨49, _⟩ => ⟨S8x2048x4096, .f32⟩
  | .hbm, ⟨50, _⟩ => ⟨S8x2048x4096, .f32⟩
  | .hbm, ⟨51, _⟩ => ⟨S8x2048x4096, .f32⟩
  | .hbm, ⟨52, _⟩ => ⟨S1x1x4096, .f32⟩
  | .hbm, ⟨53, _⟩ => ⟨S8x2048x4096, .f32⟩
  | .hbm, ⟨54, _⟩ => ⟨S8x2048x4096, .f32⟩
  | .hbm, ⟨55, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  bcast_S_S8x2048x4096 : S_.BroadcastsInDim S8x2048x4096 (![] : Fin 0 → Fin S8x2048x4096.rank)
  reducesTo_S8x2048x4096_S8x2048_d2 : S8x2048x4096.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x4096_0_1_2 : S8x2048x1.BroadcastsInDim S8x2048x4096 (![0, 1, 2] : Fin 3 → Fin S8x2048x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.RowFormula.lean ====
/-
  The mathematics both programs compute, stated once over the extended reals.

  For one row `xr` of the input (4096 features) the layer is
    h(o)   = (Σ_k xr(k) · W(o,k)) + b(o)                       -- affine map, weight stored [out, in]
    g(o)   = (½ · h) · (1 + tanh (c · (h + ((a · h) · h) · h)))   -- tanh form of GELU
    μ      = (Σ_o g(o)) / 4096                                  -- mean over the features
    σ²     = (Σ_o (g(o) − μ)²) / 4096                           -- biased variance
    r      = rsqrt (σ² + ε)
    out(o) = g(o) · (r · a2(o)) + (b2(o) − μ · (r · a2(o)))
  with ½, a, c, 1, 4096 and ε the binary32 values both programs carry (the same words on both sides, so they are
  never evaluated).  Every operation is the exact one on the extended reals; no law beyond reading the two programs
  at an index is needed, so finiteness of the inputs is not used.
-/
import Idealize.ShloMosaic.PureOps.Ideal
import Idealize.ShloMosaic.Lib.ValueIdx

noncomputable section

open scoped BigOperators

namespace Cert.DenseGeluNorm

open Idealize.ShloMosaic Idealize.ShloMosaic.ValueIdx

/-- A weight matrix, stored [out, in]. -/
abbrev Weights : Type := (⟨2, ![4096, 4096]⟩ : Shape).Idx → EReal
/-- A feature vector (bias, scale, shift). -/
abbrev Features : Type := (⟨1, ![4096]⟩ : Shape).Idx → EReal
/-- The input and the result, [batch, sequence, feature]. -/
abbrev Tokens : Type := (⟨3, ![8, 2048, 4096]⟩ : Shape).Idx → EReal
/-- The same flattened to [row, feature], row = batch · 2048 + sequence. -/
abbrev Rows : Type := (⟨2, ![16384, 4096]⟩ : Shape).Idx → EReal

/-- Output feature `o` of the affine map of one row. -/
def dense (xr : Fin 4096 → EReal) (W : Weights) (b : Features) (o : Fin 4096) : EReal :=
  (∑ k : Fin 4096, xr k * W (ix2 o k)) + b (ix1 o)

/-- The tanh form of GELU, in the order of operations both programs use. -/
def gelu (h : EReal) : EReal :=
  (Ideal.ofBits .f32 0x3F000000#32 * h) *
    (Ideal.ofBits .f32 0x3F800000#32 +
      Ideal.tanh (Ideal.ofBits .f32 0x3F4C422A#32 * (h + ((Ideal.ofBits .f32 0x3D372713#32 * h) * h) * h)))

/-- The mean of a row of activations. -/
def mean (g : Fin 4096 → EReal) : EReal :=
  Ideal.div (∑ o : Fin 4096, g o) (Ideal.ofBits .f32 0x45800000#32)

/-- The reciprocal standard deviation (biased variance, plus ε) of a row of activations. -/
def invStd (g : Fin 4096 → EReal) : EReal :=
  Ideal.rsqrt (Ideal.div (∑ o : Fin 4096, (g o - mean g) * (g o - mean g)) (Ideal.ofBits .f32 0x45800000#32)
    + Ideal.ofBits .f32 0x2B8CBCCC#32)

/-- The normalisation of a row of activations, scaled by `a2` and shifted by `b2`. -/
def normalize (g : Fin 4096 → EReal) (a2 b2 : Features) (o : Fin 4096) : EReal :=
  g o * (invStd g * a2 (ix1 o)) + (b2 (ix1 o) - mean g * (invStd g * a2 (ix1 o)))

/-- One row of the result: affine map, GELU, normalisation. -/
def rowResult (xr : Fin 4096 → EReal) (W : Weights) (b a2 b2 : Features) (o : Fin 4096) : EReal :=
  normalize (fun o' => gelu (dense xr W b o')) a2 b2 o

/-- The whole result on [batch, sequence, feature]. -/
def tokensResult (x : Tokens) (W : Weights) (b a2 b2 : Features) : Tokens :=
  fun i => rowResult (fun k => x (ix3 (i 0) (i 1) k)) W b a2 b2 (i 2)

/-- The whole result on the flattened [row, feature] array. -/
def rowsResult (X : Rows) (W : Weights) (b a2 b2 : Features) : Rows :=
  fun j => rowResult (fun k => X (ix2 (j 0) k)) W b a2 b2 (j 1)

theorem tokensResult_ix3 (x : Tokens) (W : Weights) (b a2 b2 : Features) (n : Fin 8) (s : Fin 2048) (o : Fin 4096) :
    tokensResult x W b a2 b2 (ix3 n s o) = rowResult (fun k => x (ix3 n s k)) W b a2 b2 o := rfl

theorem rowsResult_ix2 (X : Rows) (W : Weights) (b a2 b2 : Features) (r : Fin 16384) (o : Fin 4096) :
    rowsResult X W b a2 b2 (ix2 r o) = rowResult (fun k => X (ix2 r k)) W b a2 b2 o := rfl

/-- The flattened result at an index whose coordinates are known as numbers. -/
theorem rowsResult_apply (X : Rows) (W : Weights) (b a2 b2 : Features) (j : (⟨2, ![16384, 4096]⟩ : Shape).Idx)
    (r : Fin 16384) (o : Fin 4096) (hr : (j 0).val = r.val) (ho : (j 1).val = o.val) :
    rowsResult X W b a2 b2 j = rowResult (fun k => X (ix2 r k)) W b a2 b2 o := by
  obtain rfl : j = ix2 r o := funext fun a => Fin.ext (by match a with | ⟨0, _⟩ => exact hr | ⟨1, _⟩ => exact ho)
  rfl

end Cert.DenseGeluNorm

end
-- ==== Proof.ReferenceFormula.lean ====
/-
  The reference program, read one operation at a time at an index, is the row formula: its `dot_general` contracts the
  feature axis of the input against the SECOND axis of the weight (weight stored [out, in]), its two sums over the
  feature axis start from the zero word, and every other operation is pointwise or a broadcast along the rows.
-/
import proofs.«171505_j8272107012447_1_alg».proof.Proof.Gen.ReferenceIdeal.Read
import proofs.«171505_j8272107012447_1_alg».proof.Proof.RowFormula

noncomputable section

open scoped BigOperators

namespace Cert.DenseGeluNorm.Reference

open Idealize.ShloMosaic Idealize.ShloMosaic.ValueIdx Cert.ReferenceIdeal Cert.ReferenceIdeal.Read Cert.DenseGeluNorm

variable (x : Tokens) (W : Weights) (b a2 b2 : Features)

/-- The activation after the affine map and GELU, at (n, s, o). -/
theorem activation_apply (n : Fin 8) (s : Fin 2048) (o : Fin 4096) :
    val_main_v16 (F := Ideal) x W b (ix3 n s o) = gelu (dense (fun k => x (ix3 n s k)) W b o) := by
  have el : ∀ k : Fin 4096, lidx_main_v0 (ix3 n s o) k = ix3 n s k := fun k =>
    funext fun a => Fin.ext (by match a with | ⟨0, _⟩ => rfl | ⟨1, _⟩ => rfl | ⟨2, _⟩ => rfl)
  have er : ∀ k : Fin 4096, ridx_main_v0 (ix3 n s o) k = ix2 o k := fun k =>
    funext fun a => Fin.ext (by match a with | ⟨0, _⟩ => rfl | ⟨1, _⟩ => rfl)
  have eb : idx_main_v1 (idx_main_v2 (ix3 n s o)) = ix1 o :=
    funext fun a => Fin.ext (by match a with | ⟨0, _⟩ => rfl)
  have h3 : val_main_v3 (F := Ideal) x W b (ix3 n s o) = dense (fun k => x (ix3 n s k)) W b o := by
    rw [val_main_v3_apply, val_main_v0_apply, val_main_v2_apply, val_main_v1_apply, eb]
    simp only [el, er]
    rfl
  rw [val_main_v16_apply, val_main_v5_apply, val_main_v15_apply, val_main_v13_apply, val_main_v12_apply,
    val_main_v10_apply, val_main_v9_apply, val_main_v8_apply, val_main_v7_apply, val_main_v4_apply, val_main_v6_apply,
    val_main_v11_apply, val_main_v14_apply, val_main_cst_apply, val_main_cst_0_apply, val_main_cst_1_apply,
    val_main_cst_2_apply, h3]
  rfl

/-- The row mean (kept as a unit last axis by the reference), at (n, s, ·). -/
theorem mean_apply (n : Fin 8) (s : Fin 2048) (u : Fin 1) :
    val_main_v20 (F := Ideal) x W b (ix3 n s u) = mean (fun o => gelu (dense (fun k => x (ix3 n s k)) W b o)) := by
  have e18 : idx_main_v18 (ix3 n s u) = ix2 n s :=
    funext fun a => Fin.ext (by match a with | ⟨0, _⟩ => rfl | ⟨1, _⟩ => rfl)
  have e17 : ∀ k : Fin 4096, idx_main_v17 (ix2 n s) k = ix3 n s k := fun k =>
    funext fun a => Fin.ext (by match a with | ⟨0, _⟩ => rfl | ⟨1, _⟩ => rfl | ⟨2, _⟩ => rfl)
  rw [val_main_v20_apply, val_main_v18_apply, e18, val_main_v17_apply, val_main_v19_apply, val_main_cst_4_apply,
    val_main_cst_3_apply]
  simp only [e17, activation_apply, Ideal.ofBits_def, Ideal.ofBits_zero_f32, zero_add]
  rfl

/-- The reciprocal standard deviation of the row, at (n, s, ·). -/
theorem invStd_apply (n : Fin 8) (s : Fin 2048) (u : Fin 1) :
    val_main_v30 (F := Ideal) x W b (ix3 n s u) = invStd (fun o => gelu (dense (fun k => x (ix3 n s k)) W b o)) := by
  have e25 : idx_main_v25 (ix3 n s u) = ix2 n s :=
    funext fun a => Fin.ext (by match a with | ⟨0, _⟩ => rfl | ⟨1, _⟩ => rfl)
  have e24 : ∀ k : Fin 4096, idx_main_v24 (ix2 n s) k = ix3 n s k := fun k =>
    funext fun a => Fin.ext (by match a with | ⟨0, _⟩ => rfl | ⟨1, _⟩ => rfl | ⟨2, _⟩ => rfl)
  have e21 : ∀ k : Fin 4096, idx_main_v21 (ix3 n s k) = ix3 n s (0 : Fin 1) := fun k =>
    funext fun a => Fin.ext (by match a with | ⟨0, _⟩ => rfl | ⟨1, _⟩ => rfl | ⟨2, _⟩ => rfl)
  rw [val_main_v30_apply, val_main_v29_apply, val_main_v27_apply, val_main_v25_apply, e25, val_main_v24_apply,
    val_main_v26_apply, val_main_cst_6_apply, val_main_v28_apply, val_main_cst_7_apply, val_main_cst_5_apply]
  simp only [e24, val_main_v23_apply, val_main_v22_apply, val_main_v21_apply, e21, mean_apply, activation_apply,
    Ideal.ofBits_def, Ideal.ofBits_zero_f32, zero_add]
  rfl

/-- THE REFERENCE'S RESULT is the row formula of the input's rows, at every (n, s, o). -/
theorem result_eq : val_main_v41 (F := Ideal) x W b a2 b2 = tokensResult x W b a2 b2 := by
  funext i
  obtain ⟨n, s, o, rfl⟩ : ∃ (n : Fin 8) (s : Fin 2048) (o : Fin 4096), i = ix3 n s o := ⟨i 0, i 1, i 2, eq_ix3 i⟩
  have e32 : idx_main_v32 (ix3 n s o) = ix3 n s (0 : Fin 1) :=
    funext fun a => Fin.ext (by match a with | ⟨0, _⟩ => rfl | ⟨1, _⟩ => rfl | ⟨2, _⟩ => rfl)
  have e36 : idx_main_v36 (ix3 n s o) = ix3 n s (0 : Fin 1) :=
    funext fun a => Fin.ext (by match a with | ⟨0, _⟩ => rfl | ⟨1, _⟩ => rfl | ⟨2, _⟩ => rfl)
  have e31 : idx_main_v31 (idx_main_v33 (ix3 n s o)) = ix1 o :=
    funext fun a => Fin.ext (by match a with | ⟨0, _⟩ => rfl)
  have e38 : idx_main_v38 (idx_main_v39 (ix3 n s o)) = ix1 o :=
    funext fun a => Fin.ext (by match a with | ⟨0, _⟩ => rfl)
  rw [tokensResult_ix3]
  simp only [val_main_v41_apply, val_main_v35_apply, val_main_v34_apply, val_main_v32_apply, e32, val_main_v33_apply,
    val_main_v31_apply, e31, val_main_v40_apply, val_main_v39_apply, val_main_v38_apply, e38, val_main_v37_apply,
    val_main_v36_apply, e36, invStd_apply, mean_apply, activation_apply]
  rfl

end Cert.DenseGeluNorm.Reference

end
-- ==== Proof.BodyFormula.lean ====
/-
  The kernel body's arithmetic, read at an index of its 64-row block: the activation block is GELU of the affine map
  of the block's rows (the matrix unit contracts the block's feature axis against the FIRST axis of the staged weight,
  which is held [in, out]), the two lane sums run over the 4096 features of a row, and the stored block is the
  normalisation of each row, scaled and shifted by the two staged feature rows.
-/
import proofs.«171505_j8272107012447_1_alg».proof.Proof.Gen.KernelIdeal.Skeleton
import proofs.«171505_j8272107012447_1_alg».proof.Proof.RowFormula
import Idealize.ShloMosaic.Lib.Pipeline.Value
import Idealize.ShloMosaic.Lib.ValueLayout
import Idealize.ShloMosaic.PureOps.Ideal.Laws

noncomputable section

open scoped BigOperators

namespace Cert.DenseGeluNorm.Body

open Idealize.ShloMosaic Idealize.ShloMosaic.ValueIdx Cert.KernelIdeal Cert.KernelIdeal.Gen Cert.DenseGeluNorm

/-! ## Layout operations of a kept unit last axis, read at an index -/

section Layout
variable {α : Type}

/-- An `[a]` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two non-pointwise operations -/

/-- A sum along the last axis of an `[a, n]` block is, at row `p`, the sum over the row's `n` entries. -/
theorem laneSum_apply {a n : ℕ} (src : FVec Ideal ⟨2, ![a, n]⟩ .f32) (h : Shape.Reduces ⟨2, ![a, n]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin n, src (ix2 p k) := by
  refine (Ideal.multiReduction_add_single src 0x00000000#32 h hφ hacc (ix1 p)).trans ?_
  show ∑ k : Fin n, src (h.lift (ix1 p) k) = ∑ k : Fin n, src (ix2 p k)
  refine Finset.sum_congr rfl fun k _ => congrArg src (funext fun d => Fin.ext ?_)
  match d with
  | ⟨0, _⟩ => rfl
  | ⟨1, _⟩ => rfl

/-- The block operand's row coordinate is the output's row (a kept axis of the product). -/
theorem lhs_row (i : S64x4096.Idx) (c : dot_S64x4096_S4096x4096_S64x4096_1_0_0_1_n_n.contr.Idx) :
    (dot_S64x4096_S4096x4096_S64x4096_1_0_0_1_n_n.lhsIdx i c 0).val = (i 0).val := by
  unfold DotDims.lhsIdx
  rw [dif_neg (show ¬(0 : Fin S64x4096.rank) ∈ dot_S64x4096_S4096x4096_S64x4096_1_0_0_1_n_n.lhsBatch by decide),
    dif_pos (show (0 : Fin S64x4096.rank) ∈ dot_S64x4096_S4096x4096_S64x4096_1_0_0_1_n_n.lhsNonContracting by decide)]
  rfl
/-- The weight operand's column coordinate is the output's column (the other kept axis). -/
theorem rhs_col (i : S64x4096.Idx) (c : dot_S64x4096_S4096x4096_S64x4096_1_0_0_1_n_n.contr.Idx) :
    (dot_S64x4096_S4096x4096_S64x4096_1_0_0_1_n_n.rhsIdx i c 1).val = (i 1).val := by
  unfold DotDims.rhsIdx
  rw [dif_neg (show ¬(1 : Fin S4096x4096.rank) ∈ dot_S64x4096_S4096x4096_S64x4096_1_0_0_1_n_n.rhsBatch by decide),
    dif_pos (show (1 : Fin S4096x4096.rank) ∈ dot_S64x4096_S4096x4096_S64x4096_1_0_0_1_n_n.rhsNonContracting by decide)]
  rfl

/-- The matrix product of a 64-row block with the staged weight, into a zero accumulator, is at `(p, q)` the sum over
    the contracted feature `k` of block `(p, k)` times weight `(k, q)`. -/
theorem matmul_apply_ix2 (lhs : FVec Ideal S64x4096 .bf16) (rhs : FVec Ideal S4096x4096 .bf16) (p : Fin 64) (q : Fin 4096) :
    matmul dot_S64x4096_S4096x4096_S64x4096_1_0_0_1_n_n none lhs rhs (constant S64x4096 .f32 0x00000000#32) (ix2 p q)
      = ∑ k : Fin 4096, lhs (ix2 p k) * rhs (ix2 k q) := by
  simp only [matmul]
  rw [Ideal.matmul_constant_zero_apply,
    ← Equiv.sum_comp (contrEquiv1 dot_S64x4096_S4096x4096_S64x4096_1_0_0_1_n_n 4096 rfl rfl).symm]
  refine Finset.sum_congr rfl fun k _ => ?_
  have hk := contrEquiv1_symm_val dot_S64x4096_S4096x4096_S64x4096_1_0_0_1_n_n 4096 rfl rfl k
  have el : dot_S64x4096_S4096x4096_S64x4096_1_0_0_1_n_n.lhsIdx (ix2 p q)
      ((contrEquiv1 dot_S64x4096_S4096x4096_S64x4096_1_0_0_1_n_n 4096 rfl rfl).symm k) = ix2 p k :=
    funext fun a => Fin.ext (by
      match a with
      | ⟨0, _⟩ => exact lhs_row _ _
      | ⟨1, _⟩ => exact (dot_S64x4096_S4096x4096_S64x4096_1_0_0_1_n_n.lhsIdx_val_of_single rfl _ _).trans hk)
  have er : dot_S64x4096_S4096x4096_S64x4096_1_0_0_1_n_n.rhsIdx (ix2 p q)
      ((contrEquiv1 dot_S64x4096_S4096x4096_S64x4096_1_0_0_1_n_n 4096 rfl rfl).symm k) = ix2 k q :=
    funext fun a => Fin.ext (by
      match a with
      | ⟨0, _⟩ => exact (dot_S64x4096_S4096x4096_S64x4096_1_0_0_1_n_n.rhsIdx_val_of_single rfl _ _).trans hk
      | ⟨1, _⟩ => exact rhs_col _ _)
  rw [el, er]

/-! ## The body's values at an index -/

/-- The activation block: GELU of the affine map of the block's rows. -/
theorem activation_apply (x0 : Vec Ideal S64x4096 .f32) (x1 : Vec Ideal S4096x4096 .bf16) (x2 : Vec Ideal S1x4096 .f32)
    (p : Fin 64) (q : Fin 4096) :
    k0_pay2 (F := Ideal) x0 x1 x2 (ix2 p q)
      = gelu ((∑ k : Fin 4096, x0 (ix2 p k) * x1 (ix2 k q)) + x2 (ix2 (0 : Fin 1) q)) := by
  unfold k0_pay2
  simp only [shapeCast_self]
  have hA := matmul_apply_ix2 (truncf .bf16 x0 bitsLt_bf16_f32) x1 p q
  have hB := broadcastTo_1b_ab_apply x2 broadcasts_S1x4096_S64x4096 p q
  exact (show _ = gelu (_ + _) from rfl).trans (congrArg gelu (congrArg₂ (· + ·) hA hB))

/-- The column of row means. -/
theorem mean_apply (x0 : Vec Ideal S64x4096 .f32) (x1 : Vec Ideal S4096x4096 .bf16) (x2 : Vec Ideal S1x4096 .f32)
    (p : Fin 64) (u : Fin 1) :
    k0_pay3 (F := Ideal) x0 x1 x2 (ix2 p u) = mean (fun o => k0_pay2 (F := Ideal) x0 x1 x2 (ix2 p o)) := by
  unfold k0_pay3
  have hS := shapeCast_a_a1_apply (multiReduction .add [1] S64 (k0_pay2 (F := Ideal) x0 x1 x2) 0x00000000#32
    reduces_S64x4096_S64 (.inl rfl) rfl) shapeCasts_S64_S64x1 p u
  have hL := laneSum_apply (k0_pay2 (F := Ideal) x0 x1 x2) reduces_S64x4096_S64 (.inl rfl) rfl p
  exact (show _ = Ideal.div (shapeCast S64x1 _ _ (ix2 p u)) (Ideal.ofBits .f32 0x45800000#32) from rfl).trans
    (congrArg (fun z => Ideal.div z (Ideal.ofBits .f32 0x45800000#32)) (hS.trans hL))

/-- The activation block with each row's mean taken off. -/
def centred (x0 : Vec Ideal S64x4096 .f32) (x1 : Vec Ideal S4096x4096 .bf16) (x2 : Vec Ideal S1x4096 .f32) :
    FVec Ideal S64x4096 .f32 :=
  subf (k0_pay2 (F := Ideal) x0 x1 x2) (broadcastTo S64x4096 (k0_pay3 (F := Ideal) x0 x1 x2) broadcasts_S64x1_S64x4096)

theorem centred_apply (x0 : Vec Ideal S64x4096 .f32) (x1 : Vec Ideal S4096x4096 .bf16) (x2 : Vec Ideal S1x4096 .f32)
    (p : Fin 64) (q : Fin 4096) :
    centred x0 x1 x2 (ix2 p q)
      = k0_pay2 (F := Ideal) x0 x1 x2 (ix2 p q) - mean (fun o => k0_pay2 (F := Ideal) x0 x1 x2 (ix2 p o)) :=
  congrArg (fun z => k0_pay2 (F := Ideal) x0 x1 x2 (ix2 p q) - z)
    ((broadcastTo_a1_ab_apply (k0_pay3 (F := Ideal) x0 x1 x2) broadcasts_S64x1_S64x4096 p q).trans
      (mean_apply x0 x1 x2 p 0))

/-- The block of reciprocal standard deviations (one value along each row). -/
theorem invStd_apply (x0 : Vec Ideal S64x4096 .f32) (x1 : Vec Ideal S4096x4096 .bf16) (x2 : Vec Ideal S1x4096 .f32)
    (p : Fin 64) (q : Fin 4096) :
    k0_pay4 (F := Ideal) x0 x1 x2 (ix2 p q) = invStd (fun o => k0_pay2 (F := Ideal) x0 x1 x2 (ix2 p o)) := by
  unfold k0_pay4
  refine (broadcastTo_a1_ab_apply _ broadcasts_S64x1_S64x4096 p q).trans ?_
  have hS := shapeCast_a_a1_apply (multiReduction .add [1] S64 (mulf (centred x0 x1 x2) (centred x0 x1 x2)) 0x00000000#32
    reduces_S64x4096_S64 (.inl rfl) rfl) shapeCasts_S64_S64x1 p (0 : Fin 1)
  have hL := laneSum_apply (mulf (centred x0 x1 x2) (centred x0 x1 x2)) reduces_S64x4096_S64 (.inl rfl) rfl p
  have hsum : ∑ k : Fin 4096, mulf (centred x0 x1 x2) (centred x0 x1 x2) (ix2 p k)
      = ∑ o : Fin 4096, (k0_pay2 (F := Ideal) x0 x1 x2 (ix2 p o) - mean (fun o => k0_pay2 (F := Ideal) x0 x1 x2 (ix2 p o)))
          * (k0_pay2 (F := Ideal) x0 x1 x2 (ix2 p o) - mean (fun o => k0_pay2 (F := Ideal) x0 x1 x2 (ix2 p o))) :=
    Finset.sum_congr rfl fun k _ => by
      show centred x0 x1 x2 (ix2 p k) * centred x0 x1 x2 (ix2 p k) = _
      rw [centred_apply]
  exact (show _ = Ideal.rsqrt (Ideal.div (shapeCast S64x1 _ _ (ix2 p (0 : Fin 1))) (Ideal.ofBits .f32 0x45800000#32)
      + Ideal.ofBits .f32 0x2B8CBCCC#32) from rfl).trans
    (congrArg (fun z => Ideal.rsqrt (Ideal.div z (Ideal.ofBits .f32 0x45800000#32) + Ideal.ofBits .f32 0x2B8CBCCC#32))
      (hS.trans (hL.trans hsum)))

/-- THE STORED BLOCK at row `p`, feature `q`: the row formula of the block's row `p`, once the staged weight is read
    transposed and the three staged feature rows through their one row. -/
theorem block_apply (x0 : Vec Ideal S64x4096 .f32) (x1 : Vec Ideal S4096x4096 .bf16) (x2 x3 x4 : Vec Ideal S1x4096 .f32)
    (xr : Fin 4096 → EReal) (W : Weights) (b a2 b2 : Features) (p : Fin 64) (q : Fin 4096)
    (h0 : ∀ k : Fin 4096, x0 (ix2 p k) = xr k) (h1 : ∀ k o : Fin 4096, x1 (ix2 k o) = W (ix2 o k))
    (h2 : ∀ o : Fin 4096, x2 (ix2 (0 : Fin 1) o) = b (ix1 o)) (h3 : ∀ o : Fin 4096, x3 (ix2 (0 : Fin 1) o) = a2 (ix1 o))
    (h4 : ∀ o : Fin 4096, x4 (ix2 (0 : Fin 1) o) = b2 (ix1 o)) :
    k0_pay1 (F := Ideal) (k0_pay2 x0 x1 x2) (k0_pay3 x0 x1 x2) (k0_pay4 x0 x1 x2) (k0_pay5 x3) x4 (ix2 p q)
      = rowResult xr W b a2 b2 q := by
  have hg : (fun o => k0_pay2 (F := Ideal) x0 x1 x2 (ix2 p o)) = fun o => gelu (dense xr W b o) :=
    funext fun o => by
      rw [activation_apply]
      unfold dense
      simp only [h0, h1, h2]
  have e39 := invStd_apply x0 x1 x2 p q
  have e40 := broadcastTo_1b_ab_apply x3 broadcasts_S1x4096_S64x4096 p q
  have e47 := broadcastTo_1b_ab_apply x4 broadcasts_S1x4096_S64x4096 p q
  have e45 := (broadcastTo_a1_ab_apply (k0_pay3 (F := Ideal) x0 x1 x2) broadcasts_S64x1_S64x4096 p q).trans
    (mean_apply x0 x1 x2 p 0)
  unfold k0_pay1 k0_pay5
  simp only [shapeCast_self]
  show k0_pay2 (F := Ideal) x0 x1 x2 (ix2 p q)
      * (k0_pay4 (F := Ideal) x0 x1 x2 (ix2 p q) * broadcastTo S64x4096 x3 broadcasts_S1x4096_S64x4096 (ix2 p q))
    + (broadcastTo S64x4096 x4 broadcasts_S1x4096_S64x4096 (ix2 p q)
      - broadcastTo S64x4096 (k0_pay3 (F := Ideal) x0 x1 x2) broadcasts_S64x1_S64x4096 (ix2 p q)
        * (k0_pay4 (F := Ideal) x0 x1 x2 (ix2 p q) * broadcastTo S64x4096 x3 broadcasts_S1x4096_S64x4096 (ix2 p q))) = _
  rw [e39, e40, e47, e45, hg, h3, h4]
  exact (congrFun hg q).symm ▸ rfl

/-- The same at any index of the block, by its two coordinates. -/
theorem block_apply_idx (x0 : Vec Ideal S64x4096 .f32) (x1 : Vec Ideal S4096x4096 .bf16) (x2 x3 x4 : Vec Ideal S1x4096 .f32)
    (xr : Fin 4096 → EReal) (W : Weights) (b a2 b2 : Features) (y : S64x4096.Idx) (p : Fin 64) (q : Fin 4096)
    (hp : (y 0).val = p.val) (hq : (y 1).val = q.val)
    (h0 : ∀ k : Fin 4096, x0 (ix2 p k) = xr k) (h1 : ∀ k o : Fin 4096, x1 (ix2 k o) = W (ix2 o k))
    (h2 : ∀ o : Fin 4096, x2 (ix2 (0 : Fin 1) o) = b (ix1 o)) (h3 : ∀ o : Fin 4096, x3 (ix2 (0 : Fin 1) o) = a2 (ix1 o))
    (h4 : ∀ o : Fin 4096, x4 (ix2 (0 : Fin 1) o) = b2 (ix1 o)) :
    k0_pay1 (F := Ideal) (k0_pay2 x0 x1 x2) (k0_pay3 x0 x1 x2) (k0_pay4 x0 x1 x2) (k0_pay5 x3) x4 y
      = rowResult xr W b a2 b2 q := by
  obtain rfl : y = ix2 p q := funext fun a => Fin.ext (by match a with | ⟨0, _⟩ => exact hp | ⟨1, _⟩ => exact hq)
  exact block_apply x0 x1 x2 x3 x4 xr W b a2 b2 p q h0 h1 h2 h3 h4

end Cert.DenseGeluNorm.Body

end
-- ==== Proof.StagedBlocks.lean ====
/-
  What the kernel's windows stage. The host lines before the launch flatten the input to [row, feature] with
  row = batch · 2048 + sequence, transpose the weight to [in, out] (and change its format, which is the identity on
  extended reals), and view each feature vector as one row. Grid point `t` stages rows 64·t … 64·t + 63 of the
  flattened input; the weight and the three feature rows are staged whole at every point.
-/
import proofs.«171505_j8272107012447_1_alg».proof.Proof.Gen.KernelIdeal.Frame
import Idealize.ShloMosaic.Lib.Pipeline.Value
import Idealize.ShloMosaic.Lib.ValueLayout
import Idealize.ShloMosaic.Lib.StableHlo.Run

noncomputable section

namespace Cert.DenseGeluNorm.Staged

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The printed index maps, decided over the 256 grid points: the input and the output move one block of rows per
    point, every other window stays at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The arrays as the launch finds them -/

/-- The flattened input. -/
theorem entry_rows (c : Dev nD) : (V m c main_v0 : S16384x4096.Idx → EReal)
    = shapeCast S16384x4096 (m ((c : Thread nD τ).loc main_arg0)) shapeCasts_S8x2048x4096_S16384x4096 := by
  show StableHlo.after hostOps0 (fun b => m (c, b)) (Proc.devRef .tc main_v0) = _
  after_results
  rfl

/-- The weight, transposed to [in, out]. -/
theorem entry_weight (c : Dev nD) : (V m c main_v2 : S4096x4096.Idx → EReal)
    = truncf (F := Ideal) .bf16
        (transpose S4096x4096 [1, 0] (m ((c : Thread nD τ).loc main_arg1) : S4096x4096.Idx → Ideal .f32) transposes_S4096x4096_S4096x4096_1_0)
        bitsLt_bf16_f32 := by
  show StableHlo.after hostOps0 (fun b => m (c, b)) (Proc.devRef .tc main_v2) = _
  after_results

/-- The bias as one row. -/
theorem entry_bias (c : Dev nD) : (V m c main_v3 : S1x4096.Idx → EReal)
    = shapeCast S1x4096 (m ((c : Thread nD τ).loc main_arg2)) shapeCasts_S4096_S1x4096 := by
  show StableHlo.after hostOps0 (fun b => m (c, b)) (Proc.devRef .tc main_v3) = _
  after_results
  rfl

/-- The scale as one row. -/
theorem entry_scale (c : Dev nD) : (V m c main_v4 : S1x4096.Idx → EReal)
    = shapeCast S1x4096 (m ((c : Thread nD τ).loc main_arg3)) shapeCasts_S4096_S1x4096 := by
  show StableHlo.after hostOps0 (fun b => m (c, b)) (Proc.devRef .tc main_v4) = _
  after_results
  rfl

/-- The shift as one row. -/
theorem entry_shift (c : Dev nD) : (V m c main_v5 : S1x4096.Idx → EReal)
    = shapeCast S1x4096 (m ((c : Thread nD τ).loc main_arg4)) shapeCasts_S4096_S1x4096 := by
  show StableHlo.after hostOps0 (fun b => m (c, b)) (Proc.devRef .tc main_v5) = _
  after_results
  rfl

/-! ## The staged blocks at a grid point -/

/-- Row `p` of the input block at point `t` is row `64·t + p` of the flattened input. -/
theorem rows_block (c : Dev nD) (t : Fin cfg0.N) (p : Fin 64) (k : Fin 4096) (r : Fin 16384) (hr : r.val = 64 * t.val + p.val) :
    (iblk m c 0 t : Vec Ideal S64x4096 .f32) (ix2 p k) = (V m c main_v0 : S16384x4096.Idx → EReal) (ix2 r k) := by
  obtain ⟨e0, e1, -⟩ := index_facts t
  have h : ((cfg0.win 0).blk t).view.emb (ix2 p k) = ix2 r k := by
    funext a; apply Fin.ext
    match a with
    | ⟨0, _⟩ => show win0_0.index t (0 : Fin 2) * 64 + 1 * p.val = r.val; omega
    | ⟨1, _⟩ => show win0_0.index t (1 : Fin 2) * 4096 + 1 * k.val = k.val; omega
  unfold iblk
  rw [View.read_apply, h]
  rfl

/-- The weight block is the whole transposed weight: at (k, o) the weight's entry (o, k). -/
theorem weight_block (c : Dev nD) (t : Fin cfg0.N) (k o : Fin 4096) :
    (iblk m c 1 t : Vec Ideal S4096x4096 .bf16) (ix2 k o)
      = (m ((c : Thread nD τ).loc main_arg1) : S4096x4096.Idx → EReal) (ix2 o k) := by
  obtain ⟨-, -, e0, e1, -⟩ := index_facts t
  have h : ((cfg0.win 1).blk t).view.emb (ix2 k o) = ix2 k o := by
    funext a; apply Fin.ext
    match a with
    | ⟨0, _⟩ => show win0_1.index t (0 : Fin 2) * 4096 + 1 * k.val = k.val; omega
    | ⟨1, _⟩ => show win0_1.index t (1 : Fin 2) * 4096 + 1 * o.val = o.val; omega
  unfold iblk
  rw [View.read_apply, h]
  show (V m c main_v2 : S4096x4096.Idx → EReal) (ix2 k o) = _
  rw [entry_weight]
  exact transpose_ix2_apply (m ((c : Thread nD τ).loc main_arg1)) transposes_S4096x4096_S4096x4096_1_0 k o

/-- The bias block is the bias as one row. -/
theorem bias_block (c : Dev nD) (t : Fin cfg0.N) (o : Fin 4096) :
    (iblk m c 2 t : Vec Ideal S1x4096 .f32) (ix2 (0 : Fin 1) o)
      = (m ((c : Thread nD τ).loc main_arg2) : S4096.Idx → EReal) (ix1 o) := by
  obtain ⟨-, -, -, -, e0, e1, -⟩ := index_facts t
  have h : ((cfg0.win 2).blk t).view.emb (ix2 (0 : Fin 1) o) = ix2 (0 : Fin 1) o := by
    funext a; apply Fin.ext
    match a with
    | ⟨0, _⟩ => show win0_2.index t (0 : Fin 2) * 1 + 1 * 0 = 0; omega
    | ⟨1, _⟩ => show win0_2.index t (1 : Fin 2) * 4096 + 1 * o.val = o.val; omega
  unfold iblk
  rw [View.read_apply, h]
  show (V m c main_v3 : S1x4096.Idx → EReal) (ix2 (0 : Fin 1) o) = _
  rw [entry_bias]
  exact shapeCast_a_1a_apply (m ((c : Thread nD τ).loc main_arg2)) shapeCasts_S4096_S1x4096 0 o

/-- The scale block is the scale as one row. -/
theorem scale_block (c : Dev nD) (t : Fin cfg0.N) (o : Fin 4096) :
    (iblk m c 3 t : Vec Ideal S1x4096 .f32) (ix2 (0 : Fin 1) o)
      = (m ((c : Thread nD τ).loc main_arg3) : S4096.Idx → EReal) (ix1 o) := by
  obtain ⟨-, -, -, -, -, -, e0, e1, -⟩ := index_facts t
  have h : ((cfg0.win 3).blk t).view.emb (ix2 (0 : Fin 1) o) = ix2 (0 : Fin 1) o := by
    funext a; apply Fin.ext
    match a with
    | ⟨0, _⟩ => show win0_3.index t (0 : Fin 2) * 1 + 1 * 0 = 0; omega
    | ⟨1, _⟩ => show win0_3.index t (1 : Fin 2) * 4096 + 1 * o.val = o.val; omega
  unfold iblk
  rw [View.read_apply, h]
  show (V m c main_v4 : S1x4096.Idx → EReal) (ix2 (0 : Fin 1) o) = _
  rw [entry_scale]
  exact shapeCast_a_1a_apply (m ((c : Thread nD τ).loc main_arg3)) shapeCasts_S4096_S1x4096 0 o

/-- The shift block is the shift as one row. -/
theorem shift_block (c : Dev nD) (t : Fin cfg0.N) (o : Fin 4096) :
    (iblk m c 4 t : Vec Ideal S1x4096 .f32) (ix2 (0 : Fin 1) o)
      = (m ((c : Thread nD τ).loc main_arg4) : S4096.Idx → EReal) (ix1 o) := by
  obtain ⟨-, -, -, -, -, -, -, -, e0, e1, -⟩ := index_facts t
  have h : ((cfg0.win 4).blk t).view.emb (ix2 (0 : Fin 1) o) = ix2 (0 : Fin 1) o := by
    funext a; apply Fin.ext
    match a with
    | ⟨0, _⟩ => show win0_4.index t (0 : Fin 2) * 1 + 1 * 0 = 0; omega
    | ⟨1, _⟩ => show win0_4.index t (1 : Fin 2) * 4096 + 1 * o.val = o.val; omega
  unfold iblk
  rw [View.read_apply, h]
  show (V m c main_v5 : S1x4096.Idx → EReal) (ix2 (0 : Fin 1) o) = _
  rw [entry_shift]
  exact shapeCast_a_1a_apply (m ((c : Thread nD τ).loc main_arg4)) shapeCasts_S4096_S1x4096 0 o

end Cert.DenseGeluNorm.Staged

end
-- ==== Proof.KernelResult.lean ====
/-
  The kernel program's result. Grid point `t` writes back rows 64·t … 64·t + 63 of ONE function of the arrays the
  launch finds: the row formula of each flattened row. The 256 blocks tile the [16384, 4096] array, so after the
  launch it holds that function everywhere; the one host line after the launch folds the rows back to
  [batch, sequence], row = batch · 2048 + sequence, and flattening then folding is the identity on the rows.
-/
import proofs.«171505_j8272107012447_1_alg».proof.Proof.Gen.KernelIdeal.Frame
import proofs.«171505_j8272107012447_1_alg».proof.Proof.RowFormula
import proofs.«171505_j8272107012447_1_alg».proof.Proof.BodyFormula
import proofs.«171505_j8272107012447_1_alg».proof.Proof.StagedBlocks
import Idealize.ShloMosaic.Lib.Pipeline.Value
import Idealize.ShloMosaic.Lib.StableHlo.Run

noncomputable section

namespace Cert.DenseGeluNorm.Kernel

open Idealize.ShloMosaic Idealize.ShloMosaic.TcCoe Idealize.ShloMosaic.ValueIdx Idealize.SL.Sem
open Idealize.ShloMosaic.Pipeline (Dat)
open Cert.KernelIdeal Cert.KernelIdeal.Gen Cert.DenseGeluNorm Cert.DenseGeluNorm.Staged

variable (m : (ℓ : Loc nD τ sig) → Buf (Elt Ideal) ℓ) (ρ : Dev nD → PrngReg)

theorem hz : (![0, 0] : Fin 2 → Nat) = fun _ => 0 := funext fun a => by fin_cases a <;> rfl

/-- What the launch leaves in the flattened result array: the row formula of every flattened input row. -/
def rowsOut (c : Dev nD) : S16384x4096.Idx → EReal :=
  rowsResult (V m c main_v0) (m ((c : Thread nD τ).loc main_arg1)) (m ((c : Thread nD τ).loc main_arg2))
    (m ((c : Thread nD τ).loc main_arg3)) (m ((c : Thread nD τ).loc main_arg4))

/-- WHAT POINT `t` WRITES BACK is its block of rows of `rowsOut`. -/
theorem flushed_eq (c : Dev nD) (t : Fin cfg0.N) :
    (dats m 0 c).flushed 5 t = ((cfg0.win 5).blk t).view.read (Elt Ideal) (rowsOut m c) := by
  have hN : cfg0.N = 256 := N_0
  have ht := t.isLt
  obtain ⟨-, -, -, -, -, -, -, -, -, -, e0, e1⟩ := index_facts t
  show (cfg0.win 5).cut (grid0.coords t) ((dats m 0 c).after 5 t) = _
  rw [after0_5]
  unfold out0_5
  rw [View.canon_unit_zero hz]
  simp only [View.ld_unit_zero (S := S64x4096) hz, View.ld_unit_zero (S := S4096x4096) hz,
    View.ld_unit_zero (S := S1x4096) hz]
  refine funext fun (j : S64x4096.Idx) => ?_
  have hj0 : (j 0).val < 64 := (j 0).isLt
  have hj1 : (j 1).val < 4096 := (j 1).isLt
  show k0_pay1 (F := Ideal) (k0_pay2 (iblk m c 0 t) (iblk m c 1 t) (iblk m c 2 t))
      (k0_pay3 (iblk m c 0 t) (iblk m c 1 t) (iblk m c 2 t)) (k0_pay4 (iblk m c 0 t) (iblk m c 1 t) (iblk m c 2 t))
      (k0_pay5 (iblk m c 3 t)) (iblk m c 4 t) j = rowsOut m c (((cfg0.win 5).blk t).view.emb j)
  refine (Body.block_apply_idx (iblk m c 0 t) (iblk m c 1 t) (iblk m c 2 t) (iblk m c 3 t) (iblk m c 4 t)
    (fun k => (V m c main_v0 : S16384x4096.Idx → EReal) (ix2 (⟨64 * t.val + (j 0).val, by omega⟩ : Fin 16384) k))
    (m ((c : Thread nD τ).loc main_arg1)) (m ((c : Thread nD τ).loc main_arg2))
    (m ((c : Thread nD τ).loc main_arg3)) (m ((c : Thread nD τ).loc main_arg4))
    j ⟨(j 0).val, hj0⟩ ⟨(j 1).val, hj1⟩ rfl rfl
    (fun k => rows_block m c t ⟨(j 0).val, hj0⟩ k ⟨64 * t.val + (j 0).val, by omega⟩ rfl)
    (fun k o => weight_block m c t k o) (fun o => bias_block m c t o) (fun o => scale_block m c t o)
    (fun o => shift_block m c t o)).trans ?_
  exact (rowsResult_apply (V m c main_v0) (m ((c : Thread nD τ).loc main_arg1)) (m ((c : Thread nD τ).loc main_arg2))
    (m ((c : Thread nD τ).loc main_arg3)) (m ((c : Thread nD τ).loc main_arg4)) (((cfg0.win 5).blk t).view.emb j)
    ⟨64 * t.val + (j 0).val, by omega⟩ ⟨(j 1).val, hj1⟩
    (by show win0_5.index t (0 : Fin 2) * 64 + 1 * (j 0).val = 64 * t.val + (j 0).val; omega)
    (by show win0_5.index t (1 : Fin 2) * 4096 + 1 * (j 1).val = (j 1).val; omega)).symm

/-- An index of the result array is in point `t`'s block iff each coordinate is in the block's range on its axis. -/
theorem mem_blk (t : Fin cfg0.N) (i : S16384x4096.Idx) :
    i ∈ ((cfg0.win 5).blk t).view.set ↔ ∀ a : Fin 2, win0_5.index t a * S64x4096.size a ≤ (i a).val
      ∧ (i a).val < win0_5.index t a * S64x4096.size a + S64x4096.size a := by
  show i ∈ ((View.whole main_v6).slice (win0_5.rect t)).set ↔ _
  rw [View.set_slice_whole, Rect.mem_set_unit]
  exact Iff.rfl

/-- Every row of the result array is in the block of the point its row number divided by 64 names. -/
theorem cover (i : S16384x4096.Idx) :
    ∃ t : Fin cfg0.N, (cfg0.win 5).flush t = true ∧ i ∈ ((cfg0.win 5).blk t).view.set := by
  have hN : cfg0.N = 256 := N_0
  have hi0 : (i 0).val < 16384 := (i 0).isLt
  have hi1 : (i 1).val < 4096 := (i 1).isLt
  obtain ⟨t, ht⟩ : ∃ t : Fin cfg0.N, t.val = (i 0).val / 64 := ⟨⟨(i 0).val / 64, by omega⟩, rfl⟩
  obtain ⟨-, -, -, -, -, -, -, -, -, -, e0, e1⟩ := index_facts t
  refine ⟨t, flush0_5 t, ?_⟩
  rw [mem_blk]
  intro a
  match a with
  | ⟨0, _⟩ =>
    show win0_5.index t (0 : Fin 2) * 64 ≤ (i 0).val ∧ (i 0).val < win0_5.index t (0 : Fin 2) * 64 + 64
    omega
  | ⟨1, _⟩ =>
    show win0_5.index t (1 : Fin 2) * 4096 ≤ (i 1).val ∧ (i 1).val < win0_5.index t (1 : Fin 2) * 4096 + 4096
    omega

/-- THE FLATTENED RESULT ARRAY after the launch. -/
theorem final (c : Dev nD) : (dats m 0 c).arrAt 5 cfg0.N = rowsOut m c :=
  (dats m 0 c).arrAt_eq_of_cover 5 (rowsOut m c) (fun t _ => flushed_eq m c t) cover

/-- Row `2048·n + s` of the flattened result is token (n, s) of the formula on the unflattened input. -/
theorem rowsOut_apply (c : Dev nD) (n : Fin 8) (s : Fin 2048) (o : Fin 4096) (r : Fin 16384)
    (hr : r.val = n.val * 2048 + s.val) :
    rowsOut m c (ix2 r o)
      = tokensResult (m ((c : Thread nD τ).loc main_arg0)) (m ((c : Thread nD τ).loc main_arg1))
          (m ((c : Thread nD τ).loc main_arg2)) (m ((c : Thread nD τ).loc main_arg3))
          (m ((c : Thread nD τ).loc main_arg4)) (ix3 n s o) := by
  unfold rowsOut
  rw [rowsResult_ix2, tokensResult_ix3, entry_rows]
  have hx : (fun k : Fin 4096 => shapeCast S16384x4096 (m ((c : Thread nD τ).loc main_arg0))
        shapeCasts_S8x2048x4096_S16384x4096 (ix2 r k))
      = fun k : Fin 4096 => (m ((c : Thread nD τ).loc main_arg0) : S8x2048x4096.Idx → EReal) (ix3 n s k) :=
    funext fun k => shapeCast_apply _ _ (ix2 r k) (ix3 n s k) (by
      rw [Shape.rowMajor_val_three, Shape.rowMajor_val_two]
      show (n.val * 2048 + s.val) * 4096 + k.val = r.val * 4096 + k.val
      rw [hr])
  rw [hx]

/-- THE PROGRAM'S RESULT: the host line after the launch folds the flattened rows back. -/
theorem tail_eq (c : Dev nD) :
    Pipeline.afterTail₀ cfgs (dats m) 0 (V0 m) [hostOps1] c main_v7
      = tokensResult (m ((c : Thread nD τ).loc main_arg0)) (m ((c : Thread nD τ).loc main_arg1))
          (m ((c : Thread nD τ).loc main_arg2)) (m ((c : Thread nD τ).loc main_arg3))
          (m ((c : Thread nD τ).loc main_arg4)) := by
  unfold Pipeline.afterTail₀
  show StableHlo.after hostOps1 _ (Proc.devRef .tc main_v7) = _
  after_results
  rw [(Pipeline.withArrays_arr spec0 launch0.win.arr_inj c _ _ 5).trans (final m c)]
  funext i
  obtain ⟨n, s, o, rfl⟩ : ∃ (n : Fin 8) (s : Fin 2048) (o : Fin 4096), i = ix3 n s o := ⟨i 0, i 1, i 2, eq_ix3 i⟩
  have hn := n.isLt
  have hs := s.isLt
  refine (shapeCast_apply _ _ (ix3 n s o) (ix2 (⟨n.val * 2048 + s.val, by omega⟩ : Fin 16384) o) (by
    rw [Shape.rowMajor_val_three, Shape.rowMajor_val_two]; rfl)).trans ?_
  exact rowsOut_apply m c n s o _ rfl

/-- The run, read: every weakly fair execution ends with the result at the row formula of the argument arrays, the
    arguments unchanged. -/
theorem run : θ_run defs (onTc (τ := τ) (main (F := Ideal))) ⟨m, fun _ => 0, ρ⟩ fun r => ∀ c : Dev nD,
      r.2.mem ((c.tc : Thread nD τ).loc main_v7)
        = tokensResult (m ((c : Thread nD τ).loc main_arg0)) (m ((c : Thread nD τ).loc main_arg1))
            (m ((c : Thread nD τ).loc main_arg2)) (m ((c : Thread nD τ).loc main_arg3))
            (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.DenseGeluNorm.Kernel

end
-- ==== Proof.lean ====
/-
  The certificate's five claims.

  Both idealized programs compute, for every token (n, s) and feature o, the same function of the argument arrays on
  the extended reals (Proof/RowFormula.lean): an affine map of the token's 4096 features, the tanh form of GELU, and a
  normalisation over the features scaled by `a2` and shifted by `b2`. The kernel program flattens the tokens to
  rows, stages 64 rows per grid point together with the transposed weight, computes the formula for its rows and
  writes them back; the 256 blocks tile the result, which one host line folds back to tokens
  (Proof/StagedBlocks.lean, Proof/BodyFormula.lean, Proof/KernelResult.lean). The reference computes the formula
  directly, operation by operation (Proof/ReferenceFormula.lean). The two sums of products run over the same index
  set in both programs, the two means and variances divide by the same word, and the transcendental functions are
  the same functions of extended reals on the vector unit and on the host, so the two results agree term by term:
  no algebraic law is used, and the inputs' finiteness is never needed.

  The three frames are the programs' own runs with the results forgotten; the idealization rewrote no operation of
  the kernel, so there is nothing to preserve.
-/
import proofs.«171505_j8272107012447_1_alg».proof.Defs
import proofs.«171505_j8272107012447_1_alg».proof.Proof.Gen.Kernel
import proofs.«171505_j8272107012447_1_alg».proof.Proof.Gen.Kernel.Skeleton
import proofs.«171505_j8272107012447_1_alg».proof.Proof.Gen.Kernel.Launch
import proofs.«171505_j8272107012447_1_alg».proof.Proof.Gen.Kernel.Points
import proofs.«171505_j8272107012447_1_alg».proof.Proof.Gen.Kernel.Frame
import proofs.«171505_j8272107012447_1_alg».proof.Proof.Gen.KernelIdeal
import proofs.«171505_j8272107012447_1_alg».proof.Proof.Gen.KernelIdeal.Skeleton
import proofs.«171505_j8272107012447_1_alg».proof.Proof.Gen.KernelIdeal.Launch
import proofs.«171505_j8272107012447_1_alg».proof.Proof.Gen.KernelIdeal.Points
import proofs.«171505_j8272107012447_1_alg».proof.Proof.Gen.KernelIdeal.Frame
import proofs.«171505_j8272107012447_1_alg».proof.Proof.Gen.ReferenceIdeal
import proofs.«171505_j8272107012447_1_alg».proof.Proof.Gen.Pre_finite_inputs
import proofs.«171505_j8272107012447_1_alg».proof.Proof.Gen.ReferenceIdeal.Run
import proofs.«171505_j8272107012447_1_alg».proof.Proof.Gen.ReferenceIdeal.Read
import proofs.«171505_j8272107012447_1_alg».proof.Proof.RowFormula
import proofs.«171505_j8272107012447_1_alg».proof.Proof.ReferenceFormula
import proofs.«171505_j8272107012447_1_alg».proof.Proof.KernelResult
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the row formula of those arguments. -/
theorem algebraic : Cert.algebraic_KernelIdeal_ReferenceIdeal := by
  intro m ρ m' ρ' _ hagree
  refine ⟨fun c => Cert.DenseGeluNorm.tokensResult (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.DenseGeluNorm.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.DenseGeluNorm.Reference.result_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
